-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x16 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S1000000x128 .f32) (main_arg1 : IVec S2x16000000 32) (main_arg2 : FVec F S16000000 .f32) (main_arg3 : FVec F S128x32 .f32) (main_arg4 : FVec F S32 .f32) (main_arg5 : FVec F S32x32 .f32) (main_arg6 : FVec F S32 .f32) (main_arg7 : FVec F S32x16 .f32) (main_arg8 : FVec F S16 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S1000000x16 : Shape := ⟨2, ![1000000, 16]⟩
abbrev S8000x128 : Shape := ⟨2, ![8000, 128]⟩
abbrev S8000x16 : Shape := ⟨2, ![8000, 16]⟩
abbrev S8000x32 : Shape := ⟨2, ![8000, 32]⟩

abbrev nBuf : Space → Nat
  | .hbm => 16
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S2x16000000, .i32⟩
  | .hbm, ⟨2, _⟩ => ⟨S16000000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1x32, .f32⟩
  | .hbm, ⟨10, _⟩ => ⟨S1x32, .f32⟩
  | .hbm, ⟨11, _⟩ => ⟨S1x16, .f32⟩
  | .hbm, ⟨12, _⟩ => ⟨S128x32, .bf16⟩
  | .hbm, ⟨13, _⟩ => ⟨S32x32, .bf16⟩
  | .hbm, ⟨14, _⟩ => ⟨S32x16, .bf16⟩
  | .hbm, ⟨15, _⟩ => ⟨S1000000x16, .f32⟩
  | .local _ .vmem, ⟨0, _⟩ => ⟨S8000x128, .f32⟩
  | .local _ .vmem, ⟨1, _⟩ => ⟨S8000x128, .f32⟩
  | .local _ .vmem, ⟨2, _⟩ => ⟨S128x32, .bf16⟩
  | .local _ .vmem, ⟨3, _⟩ => ⟨S1x32, .f32⟩
  | .local _ .vmem, ⟨4, _⟩ => ⟨S32x32, .bf16⟩
  | .local _ .vmem, ⟨5, _⟩ => ⟨S1x32, .f32⟩
  | .local _ .vmem, ⟨6, _⟩ => ⟨S32x16, .bf16⟩
  | .local _ .vmem, ⟨7, _⟩ => ⟨S1x16, .f32⟩
  | .local _ .vmem, ⟨8, _⟩ => ⟨S8000x16, .f32⟩
  | .local _ .vmem, ⟨9, _⟩ => ⟨S8000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32_S1x32 : S32.ShapeCasts S1x32
  shapeCasts_S16_S1x16 : S16.ShapeCasts S1x16
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  dot_S8000x128_S128x32_S8000x32_1_0_0_1_n_n_wf : DotDims.WF S8000x128 S128x32 S8000x32 [1] [0] [0] [1] [] []
  dot_S8000x32_S32x32_S8000x32_1_0_0_1_n_n_wf : DotDims.WF S8000x32 S32x32 S8000x32 [1] [0] [0] [1] [] []
  dot_S8000x32_S32x16_S8000x16_1_0_0_1_n_n_wf : DotDims.WF S8000x32 S32x16 S8000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S32x16.size a
  hwx0_5 : ∀ i : grid0.Coords, EltTy.bits .bf16 = 32 ∨ (Rect.block (s := S32x16) S32x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x16.size a ≤ S1000000x16.size a
  hwx0_7 : ∀ i : grid0.Coords, EltTy.bits .f32 = 32 ∨ (Rect.block (s := S1000000x16) S8000x16.size (cc0_transform_7 i) (hinb0_7 i)).WholeWords (EltTy.packing .f32)

variable [Facts₀]

def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S8000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S2x16000000 : Shape := ⟨2, ![2, 16000000]⟩
abbrev S16000000 : Shape := ⟨1, ![16000000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1000000x32 : Shape := ⟨2, ![1000000, 32]⟩
abbrev S1x32 : Shape := ⟨2, ![1, 32]⟩
abbrev S_ : Shape := ⟨0, ![]⟩
abbrev S1000000x16 : Shape := ⟨2, ![1000000, 16]⟩
abbrev S1x16 : Shape := ⟨2, ![1, 16]⟩

abbrev nBuf : Space → Nat
  | .hbm => 27
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x16000000, .i32⟩
  | .hbm, ⟨2, _⟩ => ⟨S16000000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1000000x32, .f32⟩
  | .hbm, ⟨10, _⟩ => ⟨S1x32, .f32⟩
  | .hbm, ⟨11, _⟩ => ⟨S1000000x32, .f32⟩
  | .hbm, ⟨12, _⟩ => ⟨S1000000x32, .f32⟩
  | .hbm, ⟨13, _⟩ => ⟨S_, .f32⟩
  | .hbm, ⟨14, _⟩ => ⟨S1000000x32, .f32⟩
  | .hbm, ⟨15, _⟩ => ⟨S1000000x32, .f32⟩
  | .hbm, ⟨16, _⟩ => ⟨S1000000x32, .f32⟩
  | .hbm, ⟨17, _⟩ => ⟨S1x32, .f32⟩
  | .hbm, ⟨18, _⟩ => ⟨S1000000x32, .f32⟩
  | .hbm, ⟨19, _⟩ => ⟨S1000000x32, .f32⟩
  | .hbm, ⟨20, _⟩ => ⟨S_, .f32⟩
  | .hbm, ⟨21, _⟩ => ⟨S1000000x32, .f32⟩
  | .hbm, ⟨22, _⟩ => ⟨S1000000x32, .f32⟩
  | .hbm, ⟨23, _⟩ => ⟨S1000000x16, .f32⟩
  | .hbm, ⟨24, _⟩ => ⟨S1x16, .f32⟩
  | .hbm, ⟨25, _⟩ => ⟨S1000000x16, .f32⟩
  | .hbm, ⟨26, _⟩ => ⟨S1000000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  dot_S1000000x128_S128x32_S1000000x32_1_0_0_1_n_n_wf : DotDims.WF S1000000x128 S128x32 S1000000x32 [1] [0] [0] [1] [] []
  dot_S1000000x32_S32x32_S1000000x32_1_0_0_1_n_n_wf : DotDims.WF S1000000x32 S32x32 S1000000x32 [1] [0] [0] [1] [] []
  dot_S1000000x32_S32x16_S1000000x16_1_0_0_1_n_n_wf : DotDims.WF S1000000x32 S32x16 S1000000x16 [1] [0] [0] [1] [] []

variable [Facts₀]

def dot_S1000000x128_S128x32_S1000000x32_1_0_0_1_n_n : DotDims S1000000x128 S128x32 S1000000x32 where
  lhsContracting := [1]
  rhsContracting := [0]
  lhsNonContracting := [0]
  rhsNonContracting := [1]
  lhsBatch := []
  rhsBatch := []
  wf := dot_S1000000x128_S128x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171588_j23416161698254_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«171588_j23416161698254_2_alg».proof.Proof.LibPlainDot
import proofs.«171588_j23416161698254_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.LibRowLocal.lean ====
/-
  Dense layers act row by row.

  Say that an array `a'` of `B` rows holds rows of an array `a` of `M` rows along a map `r : Fin B → Fin M` when row `p` of
  `a'` is row `r p` of `a`, entry by entry.  A projection `x · w`, the addition of a bias row, and the clamp at zero each
  compute row `p` of their result from row `p` of their operand alone, so each carries this relation from its operand to
  its result.  This is what lets a computation done block of rows by block of rows be compared with the same computation
  done on the whole array: the block's rows are rows of the whole along `p ↦ offset + p`.
-/
import proofs.«171588_j23416161698254_2_alg».proof.Proof.LibDenseLayers

noncomputable section

namespace Cert.Layers

open Idealize.ShloMosaic Idealize.ShloMosaic.ValueIdx

variable {B M K N : Nat}

/-- Row `p` of `a'` is row `r p` of `a`. -/
def RowsOf (r : Fin B → Fin M) (a' : (⟨2, ![B, K]⟩ : Shape).Idx → EReal) (a : (⟨2, ![M, K]⟩ : Shape).Idx → EReal) : Prop :=
  ∀ (p : Fin B) (k : Fin K), a' (ix2 p k) = a (ix2 (r p) k)

/-- The projection of rows is the rows of the projection: entry `(p, q)` sums over row `p` only. -/
theorem RowsOf.project {r : Fin B → Fin M} {a' : (⟨2, ![B, K]⟩ : Shape).Idx → EReal} {a : (⟨2, ![M, K]⟩ : Shape).Idx → EReal}
    (h : RowsOf r a' a) (w : (⟨2, ![K, N]⟩ : Shape).Idx → EReal) : RowsOf r (project a' w) (project a w) := by
  intro p q
  rw [project_apply, project_apply]
  exact Finset.sum_congr rfl fun k _ => by rw [h p k]

/-- Adding one bias row to every row commutes with taking rows. -/
theorem RowsOf.addRow {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRow a' b) (addRow a b) := by
  intro p q
  show a' (ix2 p q) + b (ix2 (0 : Fin 1) q) = a (ix2 (r p) q) + b (ix2 (0 : Fin 1) q)
  rw [h p q]

/-- So does adding the bias row and clamping at zero. -/
theorem RowsOf.addRowClamp {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRowClamp a' b) (addRowClamp a b) := by
  intro p q
  show max (a' (ix2 p q) + b (ix2 (0 : Fin 1) q)) 0 = max (a (ix2 (r p) q) + b (ix2 (0 : Fin 1) q)) 0
  rw [h p q]

end Cert.Layers

end
-- ==== Proof.Mlp.lean ====
/-
  The function both programs compute: a three-layer perceptron applied to every row of `x`,

      h₁ = max (x · W₀ + b₀) 0,   h₂ = max (h₁ · W₁ + b₁) 0,   out = h₂ · W₂ + b₂,

  with feature widths 128 → 32 → 32 → 16, as one index-by-index function over the extended reals for any number `M` of
  rows.  Every layer acts row by row, so the perceptron of a block of rows is the block of rows of the perceptron.
-/
import proofs.«171588_j23416161698254_2_alg».proof.Proof.LibDenseLayers
import proofs.«171588_j23416161698254_2_alg».proof.Proof.LibRowLocal

noncomputable section

namespace Cert.Mlp

open Idealize.ShloMosaic Idealize.ShloMosaic.ValueIdx Cert.Layers

variable {B M : Nat}

/-- The perceptron of the `M` rows of `x`: weights `w₀ w₁ w₂`, bias rows `b₀ b₁ b₂` of shape `[1, ·]`. -/
def mlp (x : (⟨2, ![M, 128]⟩ : Shape).Idx → EReal)
    (w0 : (⟨2, ![128, 32]⟩ : Shape).Idx → EReal) (b0 : (⟨2, ![1, 32]⟩ : Shape).Idx → EReal)
    (w1 : (⟨2, ![32, 32]⟩ : Shape).Idx → EReal) (b1 : (⟨2, ![1, 32]⟩ : Shape).Idx → EReal)
    (w2 : (⟨2, ![32, 16]⟩ : Shape).Idx → EReal) (b2 : (⟨2, ![1, 16]⟩ : Shape).Idx → EReal) :
    (⟨2, ![M, 16]⟩ : Shape).Idx → EReal :=
  addRow (project (addRowClamp (project (addRowClamp (project x w0) b0) w1) b1) w2) b2

/-- The perceptron of rows of `x` is the same rows of the perceptron of `x`. -/
theorem mlp_rows {r : Fin B → Fin M} {x' : (⟨2, ![B, 128]⟩ : Shape).Idx → EReal} {x : (⟨2, ![M, 128]⟩ : Shape).Idx → EReal}
    (h : RowsOf r x' x)
    (w0 : (⟨2, ![128, 32]⟩ : Shape).Idx → EReal) (b0 : (⟨2, ![1, 32]⟩ : Shape).Idx → EReal)
    (w1 : (⟨2, ![32, 32]⟩ : Shape).Idx → EReal) (b1 : (⟨2, ![1, 32]⟩ : Shape).Idx → EReal)
    (w2 : (⟨2, ![32, 16]⟩ : Shape).Idx → EReal) (b2 : (⟨2, ![1, 16]⟩ : Shape).Idx → EReal) :
    RowsOf r (mlp x' w0 b0 w1 b1 w2 b2) (mlp x w0 b0 w1 b1 w2 b2) :=
  (((((h.project w0).addRowClamp b0).project w1).addRowClamp b1).project w2).addRow b2

end Cert.Mlp

end
-- ==== Proof.KernelBody.lean ====
/-
  What one grid step of the kernel stores, as a function of the blocks it loads.

  The step loads a block of 8000 rows of `x`, the three weight matrices and the three bias rows, and stores

      (max ((max (x · W₀ + b₀) 0) · W₁ + b₁) 0) · W₂ + b₂

  for those rows.  Over the extended reals a change of float format is the identity, a matrix product accumulated from a
  zero accumulator is the plain sum of products, and a cast of a block to its own shape is the block; so the stored value
  is the perceptron `Cert.Mlp.mlp` of the loaded blocks, layer by layer.
-/
import proofs.«171588_j23416161698254_2_alg».proof.Proof.Gen.KernelIdeal.Skeleton
import proofs.«171588_j23416161698254_2_alg».proof.Proof.LibKernelDense
import proofs.«171588_j23416161698254_2_alg».proof.Proof.Mlp
import Idealize.ShloMosaic.Lib.Pipeline.Value

noncomputable section

namespace Cert.KernelIdeal.Body

open Idealize.ShloMosaic Idealize.ShloMosaic.ValueIdx Cert.KernelIdeal Cert.KernelIdeal.Gen Cert.Layers Cert.Mlp

/-- The three contractions are ordinary matrix products: axis 1 of the left operand against axis 0 of the right. -/
theorem dims0 : dot_S8000x128_S128x32_S8000x32_1_0_0_1_n_n = DotDims.plain 8000 128 32 := rfl
theorem dims1 : dot_S8000x32_S32x32_S8000x32_1_0_0_1_n_n = DotDims.plain 8000 32 32 := rfl
theorem dims2 : dot_S8000x32_S32x16_S8000x16_1_0_0_1_n_n = DotDims.plain 8000 32 16 := rfl

/-- The value a grid step stores is the perceptron of the blocks it loaded. -/
theorem pay_eq (x : FVec Ideal S8000x128 .f32) (w0 : FVec Ideal S128x32 .bf16) (b0 : FVec Ideal S1x32 .f32)
    (w1 : FVec Ideal S32x32 .bf16) (b1 : FVec Ideal S1x32 .f32) (w2 : FVec Ideal S32x16 .bf16) (b2 : FVec Ideal S1x16 .f32) :
    k0_pay1 (F := Ideal) x w0 b0 w1 b1 w2 b2 = mlp x w0 b0 w1 b1 w2 b2 := by
  unfold k0_pay1 mlp
  simp only [shapeCast_self]
  -- the changes of float format are the identity on the extended reals
  show addf (matmul dot_S8000x32_S32x16_S8000x16_1_0_0_1_n_n none
        (maximumf (addf (matmul dot_S8000x32_S32x32_S8000x32_1_0_0_1_n_n none
          (maximumf (addf (matmul dot_S8000x128_S128x32_S8000x32_1_0_0_1_n_n none x w0 (constant S8000x32 .f32 0x00000000#32))
              (broadcastTo S8000x32 b0 broadcasts_S1x32_S8000x32))
            (broadcast S8000x32 (Scalar.ofBits (F := Ideal) .f32 0x00000000#32)))
          w1 (constant S8000x32 .f32 0x00000000#32))
            (broadcastTo S8000x32 b1 broadcasts_S1x32_S8000x32))
          (broadcast S8000x32 (Scalar.ofBits (F := Ideal) .f32 0x00000000#32)))
        w2 (constant S8000x16 .f32 0x00000000#32))
      (broadcastTo S8000x16 b2 broadcasts_S1x16_S8000x16) = _
  rw [Cert.Lib.matmul_bias_clamp_eq_addRowClamp _ dims0 none x w0 b0 broadcasts_S1x32_S8000x32]
  rw [Cert.Lib.matmul_bias_clamp_eq_addRowClamp _ dims1 none _ w1 b1 broadcasts_S1x32_S8000x32]
  rw [Cert.Lib.matmul_bias_eq_addRow _ dims2 none _ w2 b2 broadcasts_S1x16_S8000x16]

end Cert.KernelIdeal.Body

end
-- ==== Proof.KernelHost.lean ====
/-
  The arrays the kernel's grid steps read, as the launch finds them, and the block of each that a step loads.

  Before the launch the host prepares six of the seven input arrays: each weight matrix is converted to the narrow float
  format (the same numbers, over the extended reals), and each bias vector `[n]` is reshaped to a row `[1, n]`.  The
  activations `x` are passed as they are.  At grid step `t` the window on `x` is rows `8000·t … 8000·t + 7999` (all 128
  columns); every other input window is its whole array at every step; the output window is rows `8000·t …` of the result.
-/
import proofs.«171588_j23416161698254_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Host

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The six host-prepared arrays -/

/-- The first weight matrix as the launch finds it: the argument converted to the narrow format. -/
theorem V_w0 (c : Dev nD) : (V m c main_v3 : S128x32.Idx → Elt F .bf16)
    = truncf .bf16 (m ((c : Thread nD τ).loc main_arg3)) bitsLt_bf16_f32 := by
  dsimp only [V, hostOps0]
  after_results

/-- The second weight matrix, likewise. -/
theorem V_w1 (c : Dev nD) : (V m c main_v4 : S32x32.Idx → Elt F .bf16)
    = truncf .bf16 (m ((c : Thread nD τ).loc main_arg5)) bitsLt_bf16_f32 := by
  dsimp only [V, hostOps0]
  after_results

/-- The third weight matrix, likewise. -/
theorem V_w2 (c : Dev nD) : (V m c main_v5 : S32x16.Idx → Elt F .bf16)
    = truncf .bf16 (m ((c : Thread nD τ).loc main_arg7)) bitsLt_bf16_f32 := by
  dsimp only [V, hostOps0]
  after_results

/-- The first bias as the launch finds it: the argument vector reshaped to a row. -/
theorem V_b0 (c : Dev nD) : (V m c main_v0 : S1x32.Idx → Elt F .f32)
    = shapeCast S1x32 (m ((c : Thread nD τ).loc main_arg4)) shapeCasts_S32_S1x32 := by
  dsimp only [V, hostOps0]
  after_results
  rfl

/-- The second bias, likewise. -/
theorem V_b1 (c : Dev nD) : (V m c main_v1 : S1x32.Idx → Elt F .f32)
    = shapeCast S1x32 (m ((c : Thread nD τ).loc main_arg6)) shapeCasts_S32_S1x32 := by
  dsimp only [V, hostOps0]
  after_results
  rfl

/-- The third bias, likewise. -/
theorem V_b2 (c : Dev nD) : (V m c main_v2 : S1x16.Idx → Elt F .f32)
    = shapeCast S1x16 (m ((c : Thread nD τ).loc main_arg8)) shapeCasts_S16_S1x16 := by
  dsimp only [V, hostOps0]
  after_results
  rfl

/-! ## The windows' block indices, decided over the 125 grid steps -/

/-- At step `t` the windows on `x` and on the result are at block row `t`, block column 0; every other window is at
    block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- There are 125 steps. -/
theorem step_lt (t : Fin cfg0.N) : t.val < 125 := by
  have h := t.isLt
  have hN : cfg0.N = 125 := N_0
  omega

/-! ## The block each window loads -/

/-- The block of `x` loaded at step `t` is rows `8000·t + p` of the argument. -/
theorem iblk_x (c : Dev nD) (t : Fin cfg0.N) (p : Fin 8000) (k : Fin 128) (hr : 8000 * t.val + p.val < 1000000) :
    (iblk m c 0 t : S8000x128.Idx → Elt F .f32) (ix2 p k)
      = (m ((c : Thread nD τ).loc main_arg0) : S1000000x128.Idx → Elt F .f32) (ix2 ⟨8000 * t.val + p.val, hr⟩ k) := by
  obtain ⟨e0, e1, -⟩ := idx_facts t
  unfold iblk
  rw [View.read_apply]
  show V m c main_arg0 _ = _
  rw [V_main_arg0]
  refine congrArg (m ((c : Thread nD τ).loc main_arg0) : S1000000x128.Idx → Elt F .f32) ?_
  funext a
  apply Fin.ext
  match a with
  | ⟨0, _⟩ => show win0_0.index t (0 : Fin 2) * 8000 + 1 * p.val = 8000 * t.val + p.val; rw [e0]; omega
  | ⟨1, _⟩ => show win0_0.index t (1 : Fin 2) * 128 + 1 * k.val = k.val; rw [e1]; omega

/-- The first weight window is the whole prepared matrix at every step. -/
theorem iblk_w0 (c : Dev nD) (t : Fin cfg0.N) : (iblk m c 1 t : S128x32.Idx → Elt F .bf16) = V m c main_v3 := by
  obtain ⟨-, -, e0, e1, -⟩ := idx_facts t
  funext x
  unfold iblk
  rw [View.read_apply]
  show V m c main_v3 _ = V m c main_v3 x
  refine congrArg (V m c main_v3 : S128x32.Idx → Elt F .bf16) ?_
  funext a
  apply Fin.ext
  match a with
  | ⟨0, _⟩ => show win0_1.index t (0 : Fin 2) * 128 + 1 * (x 0).val = (x 0).val; rw [e0]; omega
  | ⟨1, _⟩ => show win0_1.index t (1 : Fin 2) * 32 + 1 * (x 1).val = (x 1).val; rw [e1]; omega

/-- The first bias window is the whole prepared row at every step. -/
theorem iblk_b0 (c : Dev nD) (t : Fin cfg0.N) : (iblk m c 2 t : S1x32.Idx → Elt F .f32) = V m c main_v0 := by
  obtain ⟨-, -, -, -, e0, e1, -⟩ := idx_facts t
  funext x
  unfold iblk
  rw [View.read_apply]
  show V m c main_v0 _ = V m c main_v0 x
  refine congrArg (V m c main_v0 : S1x32.Idx → Elt F .f32) ?_
  funext a
  apply Fin.ext
  match a with
  | ⟨0, _⟩ => show win0_2.index t (0 : Fin 2) * 1 + 1 * (x 0).val = (x 0).val; rw [e0]; omega
  | ⟨1, _⟩ => show win0_2.index t (1 : Fin 2) * 32 + 1 * (x 1).val = (x 1).val; rw [e1]; omega

/-- The second weight window is the whole prepared matrix at every step. -/
theorem iblk_w1 (c : Dev nD) (t : Fin cfg0.N) : (iblk m c 3 t : S32x32.Idx → Elt F .bf16) = V m c main_v4 := by
  obtain ⟨-, -, -, -, -, -, e0, e1, -⟩ := idx_facts t
  funext x
  unfold iblk
  rw [View.read_apply]
  show V m c main_v4 _ = V m c main_v4 x
  refine congrArg (V m c main_v4 : S32x32.Idx → Elt F .bf16) ?_
  funext a
  apply Fin.ext
  match a with
  | ⟨0, _⟩ => show win0_3.index t (0 : Fin 2) * 32 + 1 * (x 0).val = (x 0).val; rw [e0]; omega
  | ⟨1, _⟩ => show win0_3.index t (1 : Fin 2) * 32 + 1 * (x 1).val = (x 1).val; rw [e1]; omega

/-- The second bias window is the whole prepared row at every step. -/
theorem iblk_b1 (c : Dev nD) (t : Fin cfg0.N) : (iblk m c 4 t : S1x32.Idx → Elt F .f32) = V m c main_v1 := by
  obtain ⟨-, -, -, -, -, -, -, -, e0, e1, -⟩ := idx_facts t
  funext x
  unfold iblk
  rw [View.read_apply]
  show V m c main_v1 _ = V m c main_v1 x
  refine congrArg (V m c main_v1 : S1x32.Idx → Elt F .f32) ?_
  funext a
  apply Fin.ext
  match a with
  | ⟨0, _⟩ => show win0_4.index t (0 : Fin 2) * 1 + 1 * (x 0).val = (x 0).val; rw [e0]; omega
  | ⟨1, _⟩ => show win0_4.index t (1 : Fin 2) * 32 + 1 * (x 1).val = (x 1).val; rw [e1]; omega

/-- The third weight window is the whole prepared matrix at every step. -/
theorem iblk_w2 (c : Dev nD) (t : Fin cfg0.N) : (iblk m c 5 t : S32x16.Idx → Elt F .bf16) = V m c main_v5 := by
  obtain ⟨-, -, -, -, -, -, -, -, -, -, e0, e1, -⟩ := idx_facts t
  funext x
  unfold iblk
  rw [View.read_apply]
  show V m c main_v5 _ = V m c main_v5 x
  refine congrArg (V m c main_v5 : S32x16.Idx → Elt F .bf16) ?_
  funext a
  apply Fin.ext
  match a with
  | ⟨0, _⟩ => show win0_5.index t (0 : Fin 2) * 32 + 1 * (x 0).val = (x 0).val; rw [e0]; omega
  | ⟨1, _⟩ => show win0_5.index t (1 : Fin 2) * 16 + 1 * (x 1).val = (x 1).val; rw [e1]; omega

/-- The third bias window is the whole prepared row at every step. -/
theorem iblk_b2 (c : Dev nD) (t : Fin cfg0.N) : (iblk m c 6 t : S1x16.Idx → Elt F .f32) = V m c main_v2 := by
  obtain ⟨-, -, -, -, -, -, -, -, -, -, -, -, e0, e1, -⟩ := idx_facts t
  funext x
  unfold iblk
  rw [View.read_apply]
  show V m c main_v2 _ = V m c main_v2 x
  refine congrArg (V m c main_v2 : S1x16.Idx → Elt F .f32) ?_
  funext a
  apply Fin.ext
  match a with
  | ⟨0, _⟩ => show win0_6.index t (0 : Fin 2) * 1 + 1 * (x 0).val = (x 0).val; rw [e0]; omega
  | ⟨1, _⟩ => show win0_6.index t (1 : Fin 2) * 16 + 1 * (x 1).val = (x 1).val; rw [e1]; omega

end Cert.KernelIdeal.Host

end
-- ==== Proof.KernelValue.lean ====
/-
  The kernel's result array, as one function of its arguments.

  Grid step `t` stores the perceptron of the blocks it loaded (the body), the loaded block of `x` is rows
  `8000·t … 8000·t + 7999` of the argument and the other loaded blocks are the whole prepared weights and bias rows
  (the host side), and a perceptron acts row by row; so what step `t` writes back is rows `8000·t …` of the perceptron of
  the whole argument `x`.  The 125 steps' row blocks tile the `[1000000, 16]` result, so after the run the result array
  is that perceptron.
-/
import proofs.«171588_j23416161698254_2_alg».proof.Proof.Gen.KernelIdeal.Value
import proofs.«171588_j23416161698254_2_alg».proof.Proof.KernelBody
import proofs.«171588_j23416161698254_2_alg».proof.Proof.KernelHost
import proofs.«171588_j23416161698254_2_alg».proof.Proof.Mlp
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Body Cert.KernelIdeal.Host
open Cert.Layers Cert.Mlp

variable (m : (ℓ : Loc nD τ sig) → Buf (Elt Ideal) ℓ) (ρ : Dev nD → PrngReg)

/-- The result: the perceptron of the argument arrays, each bias vector read as a row. -/
def result (c : Dev nD) : S1000000x16.Idx → EReal :=
  mlp (m ((c : Thread nD τ).loc main_arg0) : S1000000x128.Idx → EReal)
    (m ((c : Thread nD τ).loc main_arg3) : S128x32.Idx → EReal)
    (shapeCast S1x32 (m ((c : Thread nD τ).loc main_arg4) : S32.Idx → EReal) shapeCasts_S32_S1x32)
    (m ((c : Thread nD τ).loc main_arg5) : S32x32.Idx → EReal)
    (shapeCast S1x32 (m ((c : Thread nD τ).loc main_arg6) : S32.Idx → EReal) shapeCasts_S32_S1x32)
    (m ((c : Thread nD τ).loc main_arg7) : S32x16.Idx → EReal)
    (shapeCast S1x16 (m ((c : Thread nD τ).loc main_arg8) : S16.Idx → EReal) shapeCasts_S16_S1x16)

theorem hz : (![0, 0] : Fin 2 → Nat) = fun _ => 0 := funext fun a => by fin_cases a <;> rfl

/-- Over the extended reals the conversion to the narrow format leaves an array as it is. -/
theorem narrow_eq {s : Shape} (a : FVec Ideal s .f32) (h : FTy.bf16.bits < FTy.f32.bits) :
    (truncf .bf16 a h : FVec Ideal s .bf16) = a := rfl

/-- The row of the whole array that row `p` of step `t`'s block is. -/
def rowAt (t : Fin cfg0.N) (p : Fin 8000) : Fin 1000000 :=
  ⟨8000 * t.val + p.val, by have := step_lt t; have := p.isLt; omega⟩

/-- Step `t`'s stored value at `(p, q)` is the result at row `8000·t + p`, column `q`. -/
theorem step_value (c : Dev nD) (t : Fin cfg0.N) (p : Fin 8000) (q : Fin 16) :
    k0_pay1 (F := Ideal) (iblk m c 0 t) (iblk m c 1 t) (iblk m c 2 t) (iblk m c 3 t) (iblk m c 4 t) (iblk m c 5 t) (iblk m c 6 t) (ix2 p q)
      = result m c (ix2 (rowAt t p) q) := by
  rw [pay_eq]
  rw [iblk_w0 m c t, iblk_b0 m c t, iblk_w1 m c t, iblk_b1 m c t, iblk_w2 m c t, iblk_b2 m c t]
  rw [V_w0 m c, V_b0 m c, V_w1 m c, V_b1 m c, V_w2 m c, V_b2 m c]
  rw [narrow_eq, narrow_eq, narrow_eq]
  exact mlp_rows (r := rowAt t) (fun p k => iblk_x m c t p k _) _ _ _ _ _ _ p q

/-- What step `t` writes back is block `t` of the result. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, e0, e1⟩ := idx_facts t
  rw [flushed7]
  unfold out0_7
  rw [View.canon_unit_zero hz]
  simp only [View.ld_unit_zero (S := S8000x128) hz, View.ld_unit_zero (S := S128x32) hz, View.ld_unit_zero (S := S1x32) hz,
    View.ld_unit_zero (S := S32x32) hz, View.ld_unit_zero (S := S32x16) hz, View.ld_unit_zero (S := S1x16) hz]
  funext j
  obtain ⟨p, q, rfl⟩ : ∃ (p : Fin 8000) (q : Fin 16), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
      = result m c (((cfg0.win 7).blk t).view.emb (ix2 p q))
  rw [step_value m c t p q]
  refine congrArg (result m c) ?_
  funext a
  apply Fin.ext
  match a with
  | ⟨0, _⟩ => show 8000 * t.val + p.val = win0_7.index t (0 : Fin 2) * 8000 + 1 * p.val; rw [e0]; omega
  | ⟨1, _⟩ => show q.val = win0_7.index t (1 : Fin 2) * 16 + 1 * q.val; rw [e1]; omega

/-- An index of the result is in step `t`'s block iff each coordinate is in the block's range on its axis. -/
theorem mem_blk (t : Fin cfg0.N) (i : S1000000x16.Idx) :
    i ∈ ((cfg0.win 7).blk t).view.set ↔ ∀ a : Fin 2, win0_7.index t a * S8000x16.size a ≤ (i a).val ∧ (i a).val < win0_7.index t a * S8000x16.size a + S8000x16.size a := by
  show i ∈ ((View.whole main_v6).slice (win0_7.rect t)).set ↔ _
  rw [View.set_slice_whole, Rect.mem_set_unit]
  exact Iff.rfl

/-- Every index of the result is in some step's block: row `r` is written at step `r / 8000`. -/
theorem cover (i : S1000000x16.Idx) :
    ∃ t : Fin cfg0.N, (cfg0.win 7).flush t = true ∧ i ∈ ((cfg0.win 7).blk t).view.set := by
  have hi0 : (i 0).val < 1000000 := (i 0).isLt
  have hi1 : (i 1).val < 16 := (i 1).isLt
  have hN : cfg0.N = 125 := N_0
  have ht : (i 0).val / 8000 < cfg0.N := by omega
  obtain ⟨-, -, -, -, -, -, -, -, -, -, -, -, -, -, e0, e1⟩ := idx_facts ⟨(i 0).val / 8000, ht⟩
  refine ⟨⟨(i 0).val / 8000, ht⟩, flush0_7 _, ?_⟩
  rw [mem_blk]
  intro a
  match a with
  | ⟨0, _⟩ =>
    show win0_7.index ⟨(i 0).val / 8000, ht⟩ (0 : Fin 2) * 8000 ≤ (i 0).val ∧ (i 0).val < win0_7.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_7.index ⟨(i 0).val / 8000, ht⟩ (1 : Fin 2) * 16 ≤ (i 1).val ∧ (i 1).val < win0_7.index ⟨(i 0).val / 8000, ht⟩ (1 : Fin 2) * 16 + 16
    rw [e1]
    omega

/-- After the run the result array is the perceptron of the arguments. -/
theorem final (c : Dev nD) : (dats m 0 c).arrAt 7 cfg0.N = result m c :=
  (dats m 0 c).arrAt_eq_of_cover 7 (result m c) (fun t _ => flushed_eq m c t) cover

/-- The kernel's run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Hand

end
-- ==== Proof.RefValue.lean ====
/-
  What the reference computes, as a function of its arguments.

  The reference is the same three layers written with whole-array operations: a matrix product, the bias vector
  broadcast to a row and then over all rows and added, and (for the first two layers) the maximum with a broadcast
  zero.  Each of these is the corresponding index-by-index layer function, so the run's result term is the perceptron
  `Cert.Mlp.mlp` of the argument arrays, the bias vectors read as rows of shape `[1, ·]`.
-/
import proofs.«171588_j23416161698254_2_alg».proof.Proof.Gen.ReferenceIdeal.Run
import proofs.«171588_j23416161698254_2_alg».proof.Proof.LibDenseLayers
import proofs.«171588_j23416161698254_2_alg».proof.Proof.Mlp

noncomputable section

namespace Cert.ReferenceIdeal.RefValue

open Idealize.ShloMosaic Idealize.ShloMosaic.ValueIdx Cert.ReferenceIdeal Cert.ReferenceIdeal.Gen Cert.Layers Cert.Mlp

/-- The three contractions are ordinary matrix products: axis 1 of the left operand against axis 0 of the right. -/
theorem dims0 : dot_S1000000x128_S128x32_S1000000x32_1_0_0_1_n_n = DotDims.plain 1000000 128 32 := rfl
theorem dims1 : dot_S1000000x32_S32x32_S1000000x32_1_0_0_1_n_n = DotDims.plain 1000000 32 32 := rfl
theorem dims2 : dot_S1000000x32_S32x16_S1000000x16_1_0_0_1_n_n = DotDims.plain 1000000 32 16 := rfl

/-- The reference's result term is the perceptron of its arguments. -/
theorem result_eq (x : FVec Ideal S1000000x128 .f32) (w0 : FVec Ideal S128x32 .f32) (b0 : FVec Ideal S32 .f32)
    (w1 : FVec Ideal S32x32 .f32) (b1 : FVec Ideal S32 .f32) (w2 : FVec Ideal S32x16 .f32) (b2 : FVec Ideal S16 .f32)
    (hc32 : S32.ShapeCasts S1x32) (hc16 : S16.ShapeCasts S1x16) :
    addf (Host.dotGeneral dot_S1000000x32_S32x16_S1000000x16_1_0_0_1_n_n none
        (maximumf (addf (Host.dotGeneral dot_S1000000x32_S32x32_S1000000x32_1_0_0_1_n_n none
          (maximumf (addf (Host.dotGeneral dot_S1000000x128_S128x32_S1000000x32_1_0_0_1_n_n none x w0)
              (broadcastInDim S1000000x32 ![0, 1] bcast_S1x32_S1000000x32_0_1 (broadcastInDim S1x32 ![1] bcast_S32_S1x32_1 b0)))
            (broadcastInDim S1000000x32 ![] bcast_S_S1000000x32 (constant (F := Ideal) S_ .f32 0x00000000#32)))
          w1)
            (broadcastInDim S1000000x32 ![0, 1] bcast_S1x32_S1000000x32_0_1 (broadcastInDim S1x32 ![1] bcast_S32_S1x32_1 b1)))
          (broadcastInDim S1000000x32 ![] bcast_S_S1000000x32 (constant (F := Ideal) S_ .f32 0x00000000#32)))
        w2)
      (broadcastInDim S1000000x16 ![0, 1] bcast_S1x16_S1000000x16_0_1 (broadcastInDim S1x16 ![1] bcast_S16_S1x16_1 b2))
    = mlp x w0 (shapeCast S1x32 b0 hc32) w1 (shapeCast S1x32 b1 hc32) w2 (shapeCast S1x16 b2 hc16) := by
  unfold mlp
  rw [dotGeneral_eq_project _ dims0 none x w0]
  rw [maximumf_bias_eq_addRowClamp _ b0 bcast_S32_S1x32_1 bcast_S1x32_S1000000x32_0_1 bcast_S_S1000000x32 hc32]
  rw [dotGeneral_eq_project _ dims1 none _ w1]
  rw [maximumf_bias_eq_addRowClamp _ b1 bcast_S32_S1x32_1 bcast_S1x32_S1000000x32_0_1 bcast_S_S1000000x32 hc32]
  rw [dotGeneral_eq_project _ dims2 none _ w2]
  rw [addf_bias_eq_addRow _ b2 bcast_S16_S1x16_1 bcast_S1x16_S1000000x16_0_1 hc16]

end Cert.ReferenceIdeal.RefValue

end
-- ==== Proof.lean ====
/-
  A three-layer perceptron applied to every row of `x : [1000000, 128]`,

      h₁ = max (x · W₀ + b₀) 0,   h₂ = max (h₁ · W₁ + b₁) 0,   out = h₂ · W₂ + b₂      (widths 128 → 32 → 32 → 16),

  computed by a kernel over 125 blocks of 8000 rows against the same three layers written with whole-array operations.
  (The edge list and edge weights are arguments of both programs and enter neither computation.)

  Over the extended reals both sides are literally the same sums, products, additions and maxima, in the same order:
  the kernel's conversions of `x`, of the hidden activations and of the weights to a narrow float format are the
  identity there, and a matrix product accumulated from zero is the plain sum of products (`0 + s = s`).  No law of
  arithmetic that could fail at an infinity is used, so the finiteness of the inputs is never needed.  What remains is
  the arrangement: the kernel computes block of rows by block of rows, and because every layer acts row by row, the
  perceptron of rows `8000·t … 8000·t + 7999` is those rows of the perceptron of the whole of `x`; the 125 blocks tile the
  result.

  The two kernels' frames are the generated ones; the reference's frame is its generated run with the result dropped;
  the kernel is printed at the ideal instance with no rewrite, so that conjunct is `True`.
-/
import proofs.«171588_j23416161698254_2_alg».proof.Defs
import proofs.«171588_j23416161698254_2_alg».proof.Proof.Gen.Kernel
import proofs.«171588_j23416161698254_2_alg».proof.Proof.Gen.Kernel.Skeleton
import proofs.«171588_j23416161698254_2_alg».proof.Proof.Gen.Kernel.Launch
import proofs.«171588_j23416161698254_2_alg».proof.Proof.Gen.Kernel.Points
import proofs.«171588_j23416161698254_2_alg».proof.Proof.Gen.Kernel.Frame
import proofs.«171588_j23416161698254_2_alg».proof.Proof.Gen.KernelIdeal
import proofs.«171588_j23416161698254_2_alg».proof.Proof.Gen.KernelIdeal.Skeleton
import proofs.«171588_j23416161698254_2_alg».proof.Proof.Gen.KernelIdeal.Launch
import proofs.«171588_j23416161698254_2_alg».proof.Proof.Gen.KernelIdeal.Points
import proofs.«171588_j23416161698254_2_alg».proof.Proof.Gen.KernelIdeal.Frame
import proofs.«171588_j23416161698254_2_alg».proof.Proof.Gen.ReferenceIdeal
import proofs.«171588_j23416161698254_2_alg».proof.Proof.Gen.Pre_finite_inputs
import proofs.«171588_j23416161698254_2_alg».proof.Proof.Gen.KernelIdeal.Value
import proofs.«171588_j23416161698254_2_alg».proof.Proof.Gen.ReferenceIdeal.Run
import proofs.«171588_j23416161698254_2_alg».proof.Proof.KernelValue
import proofs.«171588_j23416161698254_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel over the extended reals is the printed kernel's own text: no operation was rewritten. -/
theorem preserves : Cert.preserves_Kernel_KernelIdeal := trivial

/-- From memories that agree on the arguments, the kernel's result array ends at the perceptron of the arguments (its
    125 row blocks, each the perceptron of its rows) and the reference's at the same three layers of the same arguments:
    one function. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, -, a3, a4, a5, a6, a7, a8⟩ := hagree c
  rw [a0, a3, a4, a5, a6, a7, a8]
  exact Cert.ReferenceIdeal.RefValue.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
